-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel

variable [Facts]

def fn {F : FTy → Type} [FloatOps F] (main_arg0 : FVec F S64x4096x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  main_v3
-- ==== Kernel.lean ====
abbrev S64x4096x128 : Shape := ⟨3, ![64, 4096, 128]⟩
abbrev S1x4096x128 : Shape := ⟨3, ![1, 4096, 128]⟩
abbrev S4096x128 : Shape := ⟨2, ![4096, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  shapeCasts_S4096x128_S1x4096x128 : S4096x128.ShapeCasts S1x4096x128
  dot_S4096x128_S4096x128_S128x128_0_0_1_1_n_n_wf : DotDims.WF S4096x128 S4096x128 S128x128 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S64x128x128 : Shape := ⟨3, ![64, 128, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x128x128, .f32⟩
  | .hbm, ⟨2, _⟩ => ⟨S_, .f32⟩
  | .hbm, ⟨3, _⟩ => ⟨S64x128x128, .f32⟩
  | .hbm, ⟨4, _⟩ => ⟨S64x128x128, .f32⟩
  | .hbm, ⟨5, _⟩ => ⟨S64x4096x128, .f32⟩
  | .hbm, ⟨6, _⟩ => ⟨S64x4096x128, .f32⟩
  | .hbm, ⟨7, _⟩ => ⟨S64x4096x128, .f32⟩
  | .hbm, ⟨8, _⟩ => ⟨S_, .f32⟩
  | .hbm, ⟨9, _⟩ => ⟨S64x4096x128, .f32⟩
  | .hbm, ⟨10, _⟩ => ⟨S64x4096x128, .f32⟩
  | .hbm, ⟨11, _⟩ => ⟨S_, .f32⟩
  | .hbm, ⟨12, _⟩ => ⟨S64x4096x128, .f32⟩
  | .hbm, ⟨13, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S64x128x128 : S_.BroadcastsInDim S64x128x128 (![] : Fin 0 → Fin S64x128x128.rank)
  bcast_S_S64x4096x128 : S_.BroadcastsInDim S64x4096x128 (![] : Fin 0 → Fin S64x4096x128.rank)
  dot_S64x4096x128_S64x4096x128_S64x128x128_1_1_2_2_0_0_wf : DotDims.WF S64x4096x128 S64x4096x128 S64x128x128 [1] [1] [2] [2] [0] [0]
  dot_S64x4096x128_S64x128x128_S64x4096x128_2_2_1_1_0_0_wf : DotDims.WF S64x4096x128 S64x128x128 S64x4096x128 [2] [2] [1] [1] [0] [0]

variable [Facts₀]

def dot_S64x4096x128_S64x4096x128_S64x128x128_1_1_2_2_0_0 : DotDims S64x4096x128 S64x4096x128 S64x128x128 where
  lhsContracting := [1]
  rhsContracting := [1]
  lhsNonContracting := [2]
  rhsNonContracting := [2]
  lhsBatch := [0]
  rhsBatch := [0]
  wf := dot_S64x4096x128_S64x4096x128_S64x128x128_1_1_2_2_0_0_wf
def dot_S64x4096x128_S64x128x128_S64x4096x128_2_2_1_1_0_0 : DotDims S64x4096x128 S64x128x128 S64x4096x128 where
  lhsContracting := [2]
  rhsContracting := [2]
  lhsNonContracting := [1]
  rhsNonContracting := [1]
  lhsBatch := [0]
  rhsBatch := [0]
  wf := dot_S64x4096x128_S64x128x128_S64x4096x128_2_2_1_1_0_0_wf

class Facts : Prop extends Facts₀ where

variable [Facts]
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibGramDot.lean ====
/-
  A matrix product that contracts the ROWS of both operands, read at an entry, for any extents.

  For a `K` × `M` matrix `l` and a `K` × `N` matrix `r`, the product `lᵀ · r` (an einsum "td,te->de") has at entry
  (d, e) the sum over the shared row index `k` of `l (k, d) · r (k, e)`. A program's dimension numbers index that sum by
  the positions of a contraction shape; when the shape has the one axis of extent `K` and the two operand indices at
  output entry (d, e) and contraction position `k` are (k, d) and (k, e) — four coordinate facts the literal dimension
  numbers decide — the sum is the textbook one. On the extended reals this reads a vector unit's matrix product into a
  zero accumulator and the host's `dot_general` alike. With `l = r` it is the Gram matrix of the columns.
-/
import Idealize.ShloMosaic.Lib.ValueIdx
import Idealize.ShloMosaic.PureOps.Ideal.Laws

noncomputable section

open scoped BigOperators

namespace Cert.GramDot

open Idealize.ShloMosaic Idealize.ShloMosaic.ValueIdx

/-- The contraction's sum, re-indexed by the one contracted coordinate (the shared row). -/
theorem sum_contr_eq {K M N : Nat} (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (l : (⟨2, ![K, M]⟩ : Shape).Idx → EReal) (r : (⟨2, ![K, N]⟩ : Shape).Idx → EReal) (d : Fin M) (e : Fin N) :
    ∑ q : D.contr.Idx, l (D.lhsIdx (ix2 d e) q) * r (D.rhsIdx (ix2 d e) q) = ∑ k : Fin K, l (ix2 k d) * r (ix2 k e) := by
  rw [← Equiv.sum_comp (contrEquiv1 D K hr hs).symm]
  refine Finset.sum_congr rfl fun k _ => ?_
  have hk := contrEquiv1_symm_val D K hr hs k
  have el : D.lhsIdx (ix2 d e) ((contrEquiv1 D K hr hs).symm k) = ix2 k d := funext fun a => Fin.ext (by
    match a with
    | ⟨0, _⟩ => exact (l0 _ _).trans hk
    | ⟨1, _⟩ => exact l1 _ _)
  have er : D.rhsIdx (ix2 d e) ((contrEquiv1 D K hr hs).symm k) = ix2 k e := funext fun a => Fin.ext (by
    match a with
    | ⟨0, _⟩ => exact (r0 _ _).trans hk
    | ⟨1, _⟩ => exact r1 _ _)
  rw [el, er]

/-- A vector unit's matrix product into the zero accumulator, at entry (d, e): `∑ k, lhs (k, d) · rhs (k, e)`. -/
theorem matmul_zero_apply {K M N : Nat} {φ₁ φ₂ : FTy}
    (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (lhs : FVec Ideal (⟨2, ![K, M]⟩ : Shape) φ₁) (rhs : FVec Ideal (⟨2, ![K, N]⟩ : Shape) φ₂)
    (d : Fin M) (e : Fin N) :
    FloatOps.matmul D prec lhs rhs (constant (⟨2, ![M, N]⟩ : Shape) .f32 0x00000000#32) (ix2 d e)
      = ∑ k : Fin K, (lhs (ix2 k d) : EReal) * (rhs (ix2 k e) : EReal) :=
  (Ideal.matmul_constant_zero_apply D prec lhs rhs (ix2 d e)).trans (sum_contr_eq D hr hs l0 l1 r0 r1 lhs rhs d e)

/-- The host's `dot_general`, at entry (d, e): the same sum. -/
theorem dotGeneral_apply {K M N : Nat} {φ₁ φ₂ : FTy}
    (D : DotDims (⟨2, ![K, M]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (q ⟨0, by omega⟩).val)
    (l1 : ∀ (i : (⟨2, ![M, N]⟩ : Shape).Idx) (q : D.contr.Idx), (D.lhsIdx i q 1).val = (i 0).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule)
    (lhs : FVec Ideal (⟨2, ![K, M]⟩ : Shape) φ₁) (rhs : FVec Ideal (⟨2, ![K, N]⟩ : Shape) φ₂) (d : Fin M) (e : Fin N) :
    FloatOps.dotGeneral D prec sched lhs rhs (ix2 d e) = ∑ k : Fin K, (lhs (ix2 k d) : EReal) * (rhs (ix2 k e) : EReal) :=
  (Ideal.dotGeneral_apply D prec sched lhs rhs (ix2 d e)).trans (sum_contr_eq D hr hs l0 l1 r0 r1 lhs rhs d e)

end Cert.GramDot

end
-- ==== Proof.CovSpec.lean ====
/-
  The function both programs compute, and the laws that join their two spellings of it.

  For one batch slab `x` of `T = 4096` rows and `D = 128` columns the second-moment matrix is
  `A (d, e) = (∑ s, x (s, d) · x (s, e)) / T`, and the result at row `p`, column `q` is the logistic function of
  `∑ e, x (p, e) · A (q, e)`. The kernel forms `A (e, q)` and scales by the float `2⁻¹²`; the reference forms
  `A (q, e)` and divides by the float `4096`. On the extended reals the two agree because the product under the inner
  sum commutes (so `A` is symmetric, with no finiteness asked), because `2⁻¹²` is exactly `1 / 4096`, and because
  dividing any extended real by the nonzero real `4096` is multiplying it by `1 / 4096`. The reference writes the
  logistic function as `1 / (1 + exp (-z))`, which is its definition.
-/
import Idealize.ShloMosaic.PureOps.Ideal
import Idealize.ShloMosaic.Lib.ValueIdx

noncomputable section

open scoped BigOperators

namespace Cert.CovSigmoid

open Idealize.ShloMosaic Idealize.ShloMosaic.ValueIdx

/-! ## The second moments of a slab's columns -/

/-- The unnormalised second moment of columns `d` and `e`: the sum over the rows of the product of the two entries. -/
def moment {ι κ : Type} [Fintype ι] (x : ι → κ → EReal) (d e : κ) : EReal := ∑ s : ι, x s d * x s e

/-- It is symmetric in the two columns: each term's product commutes. -/
theorem moment_comm {ι κ : Type} [Fintype ι] (x : ι → κ → EReal) (d e : κ) : moment x d e = moment x e d :=
  Finset.sum_congr rfl fun s _ => mul_comm _ _

/-! ## The result, one slab at a time and over the whole array -/

/-- Row `p`, column `q` of one slab's result: the logistic function of the row's product with column `q` of the
    normalised second-moment matrix. -/
def act (x : Fin 4096 → Fin 128 → EReal) (p : Fin 4096) (q : Fin 128) : EReal :=
  Ideal.logistic (∑ e : Fin 128, x p e * (moment x q e * ((1 / 4096 : ℝ) : EReal)))

/-- The whole result: entry (b, p, q) is slab `b`'s result at (p, q). -/
def G (X : (⟨3, ![64, 4096, 128]⟩ : Shape).Idx → EReal) : (⟨3, ![64, 4096, 128]⟩ : Shape).Idx → EReal :=
  fun i => act (fun s e => X (ix3 (i 0) s e)) (i 1) (i 2)

/-! ## The three float constants -/

/-- The float `2.44140625e-4` is exactly `2⁻¹² = 1 / 4096`. -/
theorem ofBits_inv4096 : Ideal.ofBits .f32 0x39800000#32 = ((1 / 4096 : ℝ) : EReal) := by
  simp [Ideal.ofBits, Ideal.ieee, -EReal.coe_mul]; norm_num

/-- The float `4096.0` denotes the real `4096`. -/
theorem ofBits_4096 : Ideal.ofBits .f32 0x45800000#32 = ((4096 : ℝ) : EReal) := by
  simp [Ideal.ofBits, Ideal.ieee, -EReal.coe_mul]; norm_num

/-- The float `1.0` denotes `1`. -/
theorem ofBits_one : Ideal.ofBits .f32 0x3F800000#32 = 1 := by
  simp [Ideal.ofBits, Ideal.ieee, -EReal.coe_mul]; norm_num

/-! ## The two spellings meet -/

/-- Dividing by the float `4096.0` is multiplying by `1 / 4096`, at every extended real. -/
theorem div_4096 (y : EReal) : Ideal.div y (Ideal.ofBits .f32 0x45800000#32) = y * ((1 / 4096 : ℝ) : EReal) := by
  rw [ofBits_4096, Ideal.div_coe (by norm_num : (4096 : ℝ) ≠ 0)]

/-- `1.0 / (1.0 + exp (-z))` is the logistic function of `z`, by its definition. -/
theorem one_div_one_add_exp_neg (z : EReal) :
    Ideal.div (Ideal.ofBits .f32 0x3F800000#32) (Ideal.ofBits .f32 0x3F800000#32 + Ideal.exp (-z)) = Ideal.logistic z := by
  rw [ofBits_one]; rfl

end Cert.CovSigmoid

end
-- ==== Proof.KernelEntry.lean ====
/-
  The kernel's one store, read at an entry.

  At a grid point the body loads one batch slab `x` (a [1, 4096, 128] block), forms the Gram matrix of its columns
  `∑ s, x (s, e) · x (s, d)`, scales it by the float `2⁻¹²`, multiplies the slab by the scaled matrix and applies the
  logistic function. Read at (0, p, q) on the extended reals — where a change of float format is the identity — that is
  the slab result `act` of the specification: the Gram matrix is symmetric and `2⁻¹²` is `1 / 4096`.
-/
import proofs.«125639_j84799834292761_1_alg».proof.Proof.Gen.KernelIdeal.Skeleton
import proofs.«125639_j84799834292761_1_alg».proof.Proof.LibPlainDot
import proofs.«125639_j84799834292761_1_alg».proof.Proof.LibGramDot
import proofs.«125639_j84799834292761_1_alg».proof.Proof.CovSpec
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx Cert.CovSigmoid

/-! ## The operand indices of the two products -/

/-- The Gram product contracts the rows (axis 0) of both operands: the left operand is read at (k, d), -/
theorem gram_l0 (i : S128x128.Idx) (q : dot_S4096x128_S4096x128_S128x128_0_0_1_1_n_n.contr.Idx) :
    (dot_S4096x128_S4096x128_S128x128_0_0_1_1_n_n.lhsIdx i q 0).val = (q ⟨0, by decide⟩).val :=
  dot_S4096x128_S4096x128_S128x128_0_0_1_1_n_n.lhsIdx_val_of_single rfl i q
theorem gram_l1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
/-- and the right operand at (k, e). -/
theorem gram_r0 (i : S128x128.Idx) (q : dot_S4096x128_S4096x128_S128x128_0_0_1_1_n_n.contr.Idx) :
    (dot_S4096x128_S4096x128_S128x128_0_0_1_1_n_n.rhsIdx i q 0).val = (q ⟨0, by decide⟩).val :=
  dot_S4096x128_S4096x128_S128x128_0_0_1_1_n_n.rhsIdx_val_of_single rfl i q
theorem gram_r1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- The second product is a plain one: the left operand is read at (p, k), -/
theorem proj_l0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem proj_l1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- and the right operand at (k, q). -/
theorem proj_r0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem proj_r1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-! ## The two products at an entry -/

/-- The Gram product of a matrix with itself, at (d, e): the sum over the rows of the two columns' products. -/
theorem gram_apply (v : FVec Ideal S4096x128 .bf16) (d e : Fin 128) :
    matmul dot_S4096x128_S4096x128_S128x128_0_0_1_1_n_n none v v (constant S128x128 .f32 0x00000000#32) (ix2 d e)
      = ∑ s : Fin 4096, v (ix2 s d) * v (ix2 s e) :=
  Cert.GramDot.matmul_zero_apply dot_S4096x128_S4096x128_S128x128_0_0_1_1_n_n rfl rfl gram_l0 gram_l1 gram_r0 gram_r1 none v v d e

/-- The slab times a [128, 128] matrix, at (p, q): the sum over the shared index. -/
theorem proj_apply (v : FVec Ideal S4096x128 .bf16) (a : FVec Ideal S128x128 .bf16) (p : Fin 4096) (q : Fin 128) :
    matmul dot_S4096x128_S128x128_S4096x128_1_0_0_1_n_n none v a (constant S4096x128 .f32 0x00000000#32) (ix2 p q)
      = ∑ e : Fin 128, v (ix2 p e) * a (ix2 e q) :=
  Cert.PlainDot.matmul_zero_apply dot_S4096x128_S128x128_S4096x128_1_0_0_1_n_n rfl rfl proj_l0 proj_l1 proj_r0 proj_r1 none v a p q

/-! ## The store's value -/

/-- The body's stored value at (0, p, q) is the slab result of the block it loaded. -/
theorem pay_apply (x0 : Vec Ideal S1x4096x128 .f32) (u : Fin 1) (p : Fin 4096) (q : Fin 128) :
    k0_pay1 x0 (ix3 u p q) = act (fun s e => x0 (ix3 (0 : Fin 1) s e)) p q := by
  unfold k0_pay1
  refine (shapeCast_ab_1ab_apply _ _ u p q).trans ?_
  show Ideal.logistic _ = Ideal.logistic _
  refine congrArg Ideal.logistic ?_
  refine (proj_apply _ _ p q).trans ?_
  refine Finset.sum_congr rfl fun e _ => ?_
  have hx : ∀ (s : Fin 4096) (c : Fin 128),
      (truncf .bf16 (shapeCast S4096x128 x0 shapeCasts_S1x4096x128_S4096x128) bitsLt_bf16_f32 : FVec Ideal S4096x128 .bf16) (ix2 s c)
        = x0 (ix3 (0 : Fin 1) s c) := fun s c => shapeCast_1ab_ab_apply x0 _ s c
  rw [hx p e]
  refine congrArg (x0 (ix3 (0 : Fin 1) p e) * ·) ?_
  show (matmul dot_S4096x128_S4096x128_S128x128_0_0_1_1_n_n none _ _ (constant S128x128 .f32 0x00000000#32) (ix2 e q))
      * Ideal.ofBits .f32 0x39800000#32 = _
  rw [gram_apply, ofBits_inv4096, moment_comm]
  refine congrArg (· * ((1 / 4096 : ℝ) : EReal)) ?_
  unfold moment
  exact Finset.sum_congr rfl fun s _ => by rw [hx s e, hx s q]

end Cert.KernelIdeal.Entry

end
-- ==== Proof.KernelValue.lean ====
/-
  From the blocks to the whole array.

  Grid point `t` of the 64 stages batch slab `t` of the argument (window 0's block index is (t, 0, 0)) and writes back
  batch slab `t` of the result (window 1's block index is the same). What it writes is the body's stored value of the
  block it loaded, which entry by entry is the specification's `G` of the whole argument array read through the
  result's block: entry (0, p, q) of the block sits at (t, p, q) of the array, and the slab the body loaded is the
  argument's slab `t`. The 64 blocks cover the result array — index (b, p, q) lies in block `b` — so the array after
  the run is `G` of the argument.
-/
import proofs.«125639_j84799834292761_1_alg».proof.Proof.Gen.KernelIdeal.Value
import proofs.«125639_j84799834292761_1_alg».proof.Proof.KernelEntry

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.CovSigmoid
open Idealize.ShloMosaic.Pipeline (Dat)

variable (m : (ℓ : Loc nD τ sig) → Buf (Elt Ideal) ℓ) (ρ : Dev nD → PrngReg)

theorem origin_eq : (![0, 0, 0] : Fin 3 → Nat) = fun _ => 0 := funext fun a => by fin_cases a <;> rfl

/-- Both windows' block index at point `t` is (t, 0, 0): decided over the 64 points. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- One block against the array: if the loaded slab `x0` is batch slab `b` of the array `X`, the body's stored value
    at a block entry `j` is `G X` at the array index with batch `b` and `j`'s row and column. -/
theorem block_entry (X : S64x4096x128.Idx → EReal) (x0 : Vec Ideal S1x4096x128 .f32) (b : Fin 64)
    (hx : ∀ (s : Fin 4096) (e : Fin 128), x0 (ix3 (0 : Fin 1) s e) = X (ix3 b s e))
    (j : S1x4096x128.Idx) (i : S64x4096x128.Idx)
    (h0 : (i 0).val = b.val) (h1 : (i 1).val = (j 1).val) (h2 : (i 2).val = (j 2).val) :
    k0_pay1 x0 j = G X i := by
  obtain ⟨u, p, q, rfl⟩ : ∃ (u : Fin 1) (p : Fin 4096) (q : Fin 128), j = ix3 u p q := ⟨j 0, j 1, j 2, eq_ix3 j⟩
  rw [Entry.pay_apply]
  unfold G
  have e0 : i 0 = b := Fin.ext h0
  have e1 : i 1 = p := Fin.ext h1
  have e2 : i 2 = q := Fin.ext h2
  rw [e0, e1, e2]
  exact congrArg (fun f => act f p q) (funext fun s => funext fun e => hx s e)

/-- What point `t` writes back is block `t` of `G` of the argument array as the region finds it. -/
theorem flushed_eq (c : Dev nD) (t : Fin cfg0.N) :
    (dats m 0 c).flushed 1 t = ((cfg0.win 1).blk t).view.read (Elt Ideal) (G (V m c main_arg0)) := by
  rw [Value.flushed1]
  unfold out0_1
  rw [View.canon_unit_zero origin_eq]
  simp only [View.ld_unit_zero (S := S1x4096x128) origin_eq]
  obtain ⟨a0, a1, a2, b0, b1, b2⟩ := index_facts t
  have ht : t.val < 64 := t.isLt
  funext j
  show k0_pay1 (iblk m c 0 t) j = G (V m c main_arg0) (((cfg0.win 1).blk t).view.emb j)
  refine block_entry (V m c main_arg0) (iblk m c 0 t) ⟨t.val, ht⟩ (fun s e => ?_) j _ ?_ ?_ ?_
  · show V m c main_arg0 (((cfg0.win 0).blk t).view.emb (ix3 (0 : Fin 1) s e)) = V m c main_arg0 (ix3 ⟨t.val, ht⟩ s e)
    refine congrArg _ (funext fun a => Fin.ext ?_)
    match a with
    | ⟨0, _⟩ => show win0_0.index t (0 : Fin 3) * 1 + 1 * 0 = t.val; omega
    | ⟨1, _⟩ => show win0_0.index t (1 : Fin 3) * 4096 + 1 * s.val = s.val; omega
    | ⟨2, _⟩ => show win0_0.index t (2 : Fin 3) * 128 + 1 * e.val = e.val; omega
  · show win0_1.index t (0 : Fin 3) * 1 + 1 * (j 0).val = t.val
    have hj : (j 0).val < 1 := (j 0).isLt
    omega
  · show win0_1.index t (1 : Fin 3) * 4096 + 1 * (j 1).val = (j 1).val; omega
  · show win0_1.index t (2 : Fin 3) * 128 + 1 * (j 2).val = (j 2).val; omega

/-- An index of the result array is in point `t`'s block iff each coordinate is in the block's range on its axis. -/
theorem mem_block (t : Fin cfg0.N) (i : S64x4096x128.Idx) :
    i ∈ ((cfg0.win 1).blk t).view.set ↔ ∀ a : Fin 3, win0_1.index t a * S1x4096x128.size a ≤ (i a).val ∧ (i a).val < win0_1.index t a * S1x4096x128.size a + S1x4096x128.size a := by
  show i ∈ ((View.whole main_v0).slice (win0_1.rect t)).set ↔ _
  rw [View.set_slice_whole, Rect.mem_set_unit]
  exact Iff.rfl

/-- Every index (b, p, q) of the result array lies in the block of point `b`, which writes back. -/
theorem covered (i : S64x4096x128.Idx) :
    ∃ t : Fin cfg0.N, (cfg0.win 1).flush t = true ∧ i ∈ ((cfg0.win 1).blk t).view.set := by
  have hi0 : (i 0).val < 64 := (i 0).isLt
  have hi1 : (i 1).val < 4096 := (i 1).isLt
  have hi2 : (i 2).val < 128 := (i 2).isLt
  refine ⟨⟨(i 0).val, hi0⟩, flush0_1 _, ?_⟩
  obtain ⟨a0, a1, a2, b0, b1, b2⟩ := index_facts ⟨(i 0).val, hi0⟩
  have b0' : win0_1.index ⟨(i 0).val, hi0⟩ (0 : Fin 3) = (i 0).val := b0
  rw [mem_block]
  intro a
  match a with
  | ⟨0, _⟩ => show win0_1.index ⟨(i 0).val, hi0⟩ (0 : Fin 3) * 1 ≤ (i 0).val ∧ (i 0).val < win0_1.index ⟨(i 0).val, hi0⟩ (0 : Fin 3) * 1 + 1; omega
  | ⟨1, _⟩ => show win0_1.index ⟨(i 0).val, hi0⟩ (1 : Fin 3) * 4096 ≤ (i 1).val ∧ (i 1).val < win0_1.index ⟨(i 0).val, hi0⟩ (1 : Fin 3) * 4096 + 4096; omega
  | ⟨2, _⟩ => show win0_1.index ⟨(i 0).val, hi0⟩ (2 : Fin 3) * 128 ≤ (i 2).val ∧ (i 2).val < win0_1.index ⟨(i 0).val, hi0⟩ (2 : Fin 3) * 128 + 128; omega

/-- The result array after the run is `G` of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) covered

/-- The kernel's run, read: every weakly fair execution ends with the result array at `G` of the argument, the argument
    unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefValue.lean ====
/-
  The reference computes the specification.

  Read one operation at a time at an index (b, p, q), the reference's result is
  `1 / (1 + exp (-(∑ e, x (b, p, e) · ((∑ s, x (b, s, q) · x (b, s, e)) / 4096))))`: its first `dot_general` is the
  second moment of columns (q, e) of slab `b`, its second contracts the slab's row `p` with row `q` of the normalised
  moments. That is the specification's `G` at (b, p, q) once the division by the float `4096.0` is read as the product
  with `1 / 4096` and the quotient `1 / (1 + exp (-z))` as the logistic function.
-/
import proofs.«125639_j84799834292761_1_alg».proof.Proof.Gen.ReferenceIdeal.Read
import proofs.«125639_j84799834292761_1_alg».proof.Proof.CovSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.CovSigmoid

/-- The reference's last stage is `G` of the argument array. -/
theorem ref_eq (X : (⟨S64x4096x128, .f32⟩ : BufTy).Contents (Elt Ideal)) : val_main_v9 (F := Ideal) X = G X := by
  funext i
  rw [val_main_v9_apply, val_main_v8_apply, val_main_cst_1_apply, val_main_v7_apply, val_main_v6_apply,
    val_main_cst_0_apply, val_main_v5_apply, val_main_v4_apply, val_main_v3_apply]
  simp only [Ideal.hostDivf_def, Ideal.ofBits_def, Ideal.addf_def, Ideal.hostUnary_exp_def, Ideal.hostNegf_def,
    Ideal.negf_def]
  rw [one_div_one_add_exp_neg]
  unfold G act
  refine congrArg Ideal.logistic (Finset.sum_congr rfl fun e _ => ?_)
  have hl : lidx_main_v3 i e = ix3 (i 0) (i 1) e :=
    funext fun a => Fin.ext (by match a with | ⟨0, _⟩ => rfl | ⟨1, _⟩ => rfl | ⟨2, _⟩ => rfl)
  rw [hl, val_main_v2_apply, val_main_v0_apply, val_main_v1_apply, val_main_cst_apply]
  simp only [Ideal.hostDivf_def, Ideal.ofBits_def]
  rw [div_4096]
  refine congrArg (X (ix3 (i 0) (i 1) e) * ·) (congrArg (· * ((1 / 4096 : ℝ) : EReal)) ?_)
  unfold moment
  refine Finset.sum_congr rfl fun s _ => ?_
  have h1 : lidx_main_v0 (ridx_main_v3 i e) s = ix3 (i 0) s (i 2) :=
    funext fun a => Fin.ext (by match a with | ⟨0, _⟩ => rfl | ⟨1, _⟩ => rfl | ⟨2, _⟩ => rfl)
  have h2 : ridx_main_v0 (ridx_main_v3 i e) s = ix3 (i 0) s e :=
    funext fun a => Fin.ext (by match a with | ⟨0, _⟩ => rfl | ⟨1, _⟩ => rfl | ⟨2, _⟩ => rfl)
  rw [h1, h2]
  rfl

end Cert.ReferenceIdeal.RefValue

end
-- ==== Proof.lean ====
/-
  The certificate's five claims.

  For each of the 64 batch slabs `x` (4096 rows, 128 columns) both programs compute the logistic function of
  `x · A`, where `A = xᵀ x / 4096` is the slab's normalised second-moment matrix. The kernel takes one slab per grid
  point, forms `A (e, q)`, scales it by the float `2⁻¹²` and multiplies the slab by it; the reference forms `A (q, e)`
  by a batched `dot_general`, divides by the float `4096.0`, contracts the slab's rows with `A`'s rows and writes the
  logistic function as `1 / (1 + exp (-z))`. On the extended reals the two results are one function of the argument
  array (`Cert.CovSigmoid.G`): the second-moment matrix is symmetric because each product under its sum commutes,
  `2⁻¹²` is exactly `1 / 4096`, and dividing by the nonzero real `4096` is multiplying by `1 / 4096` at every extended
  real — so the finiteness of the inputs is never used. The kernel's idealization rewrote no operation, so `preserves`
  has nothing to show.
-/
import proofs.«125639_j84799834292761_1_alg».proof.Defs
import proofs.«125639_j84799834292761_1_alg».proof.Proof.Gen.Kernel
import proofs.«125639_j84799834292761_1_alg».proof.Proof.Gen.Kernel.Skeleton
import proofs.«125639_j84799834292761_1_alg».proof.Proof.Gen.Kernel.Launch
import proofs.«125639_j84799834292761_1_alg».proof.Proof.Gen.Kernel.Points
import proofs.«125639_j84799834292761_1_alg».proof.Proof.Gen.Kernel.Frame
import proofs.«125639_j84799834292761_1_alg».proof.Proof.Gen.KernelIdeal
import proofs.«125639_j84799834292761_1_alg».proof.Proof.Gen.KernelIdeal.Skeleton
import proofs.«125639_j84799834292761_1_alg».proof.Proof.Gen.KernelIdeal.Launch
import proofs.«125639_j84799834292761_1_alg».proof.Proof.Gen.KernelIdeal.Points
import proofs.«125639_j84799834292761_1_alg».proof.Proof.Gen.KernelIdeal.Frame
import proofs.«125639_j84799834292761_1_alg».proof.Proof.Gen.ReferenceIdeal
import proofs.«125639_j84799834292761_1_alg».proof.Proof.Gen.Pre_finite_inputs
import proofs.«125639_j84799834292761_1_alg».proof.Proof.Gen.KernelIdeal.Value
import proofs.«125639_j84799834292761_1_alg».proof.Proof.Gen.ReferenceIdeal.Run
import proofs.«125639_j84799834292761_1_alg».proof.Proof.Gen.ReferenceIdeal.Read
import proofs.«125639_j84799834292761_1_alg».proof.Proof.KernelValue
import proofs.«125639_j84799834292761_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a line of host operations: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, the kernel's result array ends at `G` of the argument (its run read
    block by block) and the reference's result at its last stage, which is `G` of the same argument. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
